-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S8192x256, .f32⟩
  | .local _ .vmem, ⟨3, _⟩ => ⟨S1024x1024, .f32⟩
  | .local _ .vmem, ⟨4, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v3 : Index := Scalar.indexCast v1
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  shapeCasts_S1024_S1x1024 : S1024.ShapeCasts S1x1024
  bitsLt_bf16_f32 : FTy.bits .bf16 < FTy.bits .f32
  transposes_S1024x256_p1_0_S256x1024 : S1024x256.Transposes [1, 0] S256x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S256x1024_S1024x1024_1_0_0_1_n_n_wf : DotDims.WF S1024x256 S256x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.DistSpec.lean ====
/-
  The table of squared distances between the rows of two arrays of points in dimension 256, as one function of the
  two arrays. For rows `x_r` and `y_s` the entry is `‖x_r‖² + ‖y_s‖² − 2·⟨x_r, y_s⟩`, the norms and the inner product
  plain sums over the 256 coordinates of products of extended reals. It can be added up in two orders,
      (‖x_r‖² − 2⟨x_r, y_s⟩) + ‖y_s‖²      and      (‖x_r‖² + ‖y_s‖²) − 2⟨x_r, y_s⟩,
  and the two agree at EVERY input, infinite ones included: on the extended reals a difference is the sum with the
  negative, and addition is commutative and associative with no side condition (`⊤ + ⊥ = ⊥` on both sides alike).
  No finiteness is used anywhere below.
-/
import Idealize.ShloMosaic.PureOps.Ideal
import Idealize.ShloMosaic.PureOps.Ideal.Laws
import Idealize.ShloMosaic.Lib.ValueIdx

noncomputable section

open scoped BigOperators

namespace Cert.SqDist

open Idealize.ShloMosaic Idealize.ShloMosaic.ValueIdx

/-- The squared length of row `r` of an `n × 256` array: `∑ₖ x[r,k] · x[r,k]`. -/
def rowSq {n : Nat} (x : (⟨2, ![n, 256]⟩ : Shape).Idx → EReal) (r : Fin n) : EReal :=
  ∑ k : Fin 256, x (ix2 r k) * x (ix2 r k)

/-- The inner product of row `r` of `x` with row `s` of `y`: `∑ₖ x[r,k] · y[s,k]`. -/
def rowDot {n n' : Nat} (x : (⟨2, ![n, 256]⟩ : Shape).Idx → EReal) (y : (⟨2, ![n', 256]⟩ : Shape).Idx → EReal)
    (r : Fin n) (s : Fin n') : EReal :=
  ∑ k : Fin 256, x (ix2 r k) * y (ix2 s k)

/-- The factor two in front of the inner product, as the f32 word that denotes it (the same word on both sides, so its
    value is never needed). -/
def two : EReal := Ideal.ofBits .f32 0x40000000#32

/-- One entry, the cross term taken off the first norm and the second norm added last. -/
def entry {n n' : Nat} (x : (⟨2, ![n, 256]⟩ : Shape).Idx → EReal) (y : (⟨2, ![n', 256]⟩ : Shape).Idx → EReal)
    (r : Fin n) (s : Fin n') : EReal :=
  (rowSq x r - two * rowDot x y r s) + rowSq y s

/-- The same entry with the two norms added first and the cross term taken off last: a difference is a sum with the
    negative, and the three summands may be taken in any order. -/
theorem entry_eq_norms_sub {n n' : Nat} (x : (⟨2, ![n, 256]⟩ : Shape).Idx → EReal)
    (y : (⟨2, ![n', 256]⟩ : Shape).Idx → EReal) (r : Fin n) (s : Fin n') :
    entry x y r s = (rowSq x r + rowSq y s) - two * rowDot x y r s := by
  unfold entry
  rw [sub_eq_add_neg, sub_eq_add_neg, add_right_comm]

/-- An entry depends on the two rows alone: if row `p` of `u` is row `R` of `X` and row `q` of `w` is row `C` of `Y`,
    coordinate by coordinate, the entry of `(u, w)` at `(p, q)` is the entry of `(X, Y)` at `(R, C)`. This is how a block's
    entry is an entry of the whole table. -/
theorem entry_congr {n n' N N' : Nat} (u : (⟨2, ![n, 256]⟩ : Shape).Idx → EReal) (w : (⟨2, ![n', 256]⟩ : Shape).Idx → EReal)
    (X : (⟨2, ![N, 256]⟩ : Shape).Idx → EReal) (Y : (⟨2, ![N', 256]⟩ : Shape).Idx → EReal)
    (p : Fin n) (q : Fin n') (R : Fin N) (C : Fin N')
    (hu : ∀ k : Fin 256, u (ix2 p k) = X (ix2 R k)) (hw : ∀ k : Fin 256, w (ix2 q k) = Y (ix2 C k)) :
    entry u w p q = entry X Y R C := by
  unfold entry rowSq rowDot
  simp only [hu, hw]

/-- The whole 8192 × 8192 table of two 8192 × 256 arrays, index by index. -/
def table (x y : (⟨2, ![8192, 256]⟩ : Shape).Idx → EReal) : (⟨2, ![8192, 8192]⟩ : Shape).Idx → EReal :=
  fun i => entry x y ⟨(i 0).val, idx2_lt0 i⟩ ⟨(i 1).val, idx2_lt1 i⟩

theorem table_ix2 (x y : (⟨2, ![8192, 256]⟩ : Shape).Idx → EReal) (r s : Fin 8192) :
    table x y (ix2 r s) = entry x y r s := rfl

end Cert.SqDist

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.BodyValue.lean ====
/-
  What the kernel body computes from its two loaded blocks, read at one entry, on the extended reals.

  The body holds a block `u` of 1024 rows of the first array and a slab `w` of 1024 rows of the second. It forms the
  row sums of squares of each (a lane reduction; the first kept as a column, the second as a row), the matrix product
  of `u` with the transpose of `w` (the narrowing to bf16 before it is the identity on extended reals, and the product
  into a zero accumulator is the plain sum over the 256 contracted coordinates), doubles the product, takes it off the
  column of `u`'s sums and adds the row of `w`'s sums. At entry `(p, q)` of the 1024 × 1024 result that is
      (‖u_p‖² − 2·⟨u_p, w_q⟩) + ‖w_q‖².
-/
import proofs.«141284_j22445499089119_2_alg».proof.Proof.Gen.KernelIdeal.Skeleton
import proofs.«141284_j22445499089119_2_alg».proof.Proof.DistSpec
import proofs.«141284_j22445499089119_2_alg».proof.Proof.LibKeepdims
import Idealize.ShloMosaic.PureOps.Ideal.Laws
import Idealize.ShloMosaic.Lib.ValueIdx
import Idealize.ShloMosaic.Lib.ValueLayout

noncomputable section

open scoped BigOperators

namespace Cert.KernelIdeal.BodyValue

open Cert.KernelIdeal Cert.KernelIdeal.Gen Idealize.ShloMosaic Idealize.ShloMosaic.ValueIdx Cert.SqDist Cert.Keepdims

/-! ## The row sums of squares -/

/-- The lane reduction of `u ⊙ u` at row `p` is the sum over the 256 coordinates of the squares of row `p`. -/
theorem sumSq_apply (u : FVec Ideal S1024x256 .f32) (hr : S1024x256.Reduces [1] S1024) (hφ : FKind.Formats .f32)
    (hacc : (0x00000000#32 : BitVec (FTy.bits .f32)) = FKind.add.neutral .f32 hφ) (p : Fin 1024) :
    multiReduction .add [1] S1024 (mulf u u) 0x00000000#32 hr hφ hacc (ix1 p) = rowSq (n := 1024) u p := by
  refine (Ideal.multiReduction_add_single (mulf u u) 0x00000000#32 hr hφ hacc (ix1 p)).trans ?_
  unfold rowSq
  refine Finset.sum_congr rfl fun k _ => ?_
  have e : hr.lift (ix1 p) k = ix2 p k :=
    funext fun a => Fin.ext (by match a with | ⟨0, _⟩ => rfl | ⟨1, _⟩ => rfl)
  rw [e]
  rfl

/-- Kept as a column and repeated along the second axis, the sums of squares read, at `(p, q)`, row `p`'s. -/
theorem colNorm_apply (u : FVec Ideal S1024x256 .f32) (hr : S1024x256.Reduces [1] S1024) (hφ : FKind.Formats .f32)
    (hacc : (0x00000000#32 : BitVec (FTy.bits .f32)) = FKind.add.neutral .f32 hφ) (hc : S1024.ShapeCasts S1024x1)
    (hb : S1024x1.Broadcasts S1024x1024) (p q : Fin 1024) :
    broadcastTo S1024x1024 (shapeCast S1024x1 (multiReduction .add [1] S1024 (mulf u u) 0x00000000#32 hr hφ hacc) hc) hb (ix2 p q)
      = rowSq (n := 1024) u p := by
  refine (broadcastTo_a1_ab_apply _ hb p q).trans ?_
  refine (shapeCast_a_a1_apply _ hc p 0).trans ?_
  exact sumSq_apply u hr hφ hacc p

/-- Laid as a row and repeated along the first axis, the sums of squares read, at `(p, q)`, row `q`'s. -/
theorem rowNorm_apply (w : FVec Ideal S1024x256 .f32) (hr : S1024x256.Reduces [1] S1024) (hφ : FKind.Formats .f32)
    (hacc : (0x00000000#32 : BitVec (FTy.bits .f32)) = FKind.add.neutral .f32 hφ) (hc : S1024.ShapeCasts S1x1024)
    (hb : S1x1024.Broadcasts S1024x1024) (p q : Fin 1024) :
    broadcastTo S1024x1024 (shapeCast S1x1024 (multiReduction .add [1] S1024 (mulf w w) 0x00000000#32 hr hφ hacc) hc) hb (ix2 p q)
      = rowSq (n := 1024) w q := by
  refine (broadcastTo_1b_ab_apply _ hb p q).trans ?_
  refine (shapeCast_a_1a_apply _ hc 0 q).trans ?_
  exact sumSq_apply w hr hφ hacc q

/-! ## The matrix product -/

/-- The product's left operand is read at the result's row and the contracted coordinate … -/
theorem lhs_row (i : S1024x1024.Idx) (k : dot_S1024x256_S256x1024_S1024x1024_1_0_0_1_n_n.contr.Idx) :
    (dot_S1024x256_S256x1024_S1024x1024_1_0_0_1_n_n.lhsIdx i k 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem lhs_col (i : S1024x1024.Idx) (k : dot_S1024x256_S256x1024_S1024x1024_1_0_0_1_n_n.contr.Idx) :
    (dot_S1024x256_S256x1024_S1024x1024_1_0_0_1_n_n.lhsIdx i k 1).val = (k ⟨0, by decide⟩).val :=
  dot_S1024x256_S256x1024_S1024x1024_1_0_0_1_n_n.lhsIdx_val_of_single rfl i k
/-- … and its right operand, the transposed slab, at the contracted coordinate and the result's column. -/
theorem rhs_row (i : S1024x1024.Idx) (k : dot_S1024x256_S256x1024_S1024x1024_1_0_0_1_n_n.contr.Idx) :
    (dot_S1024x256_S256x1024_S1024x1024_1_0_0_1_n_n.rhsIdx i k 0).val = (k ⟨0, by decide⟩).val :=
  dot_S1024x256_S256x1024_S1024x1024_1_0_0_1_n_n.rhsIdx_val_of_single rfl i k
theorem rhs_col (i : S1024x1024.Idx) (k : dot_S1024x256_S256x1024_S1024x1024_1_0_0_1_n_n.contr.Idx) :
    (dot_S1024x256_S256x1024_S1024x1024_1_0_0_1_n_n.rhsIdx i k 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The product of `u` with the transpose of `w`, into the zero block, at `(p, q)`: the inner product of row `p` of `u`
    with row `q` of `w` (the contraction re-indexed by its one coordinate; the transpose read back at `(q, k)`). -/
theorem dot_apply (u w : FVec Ideal S1024x256 .f32) (hlt : FTy.bits .bf16 < FTy.bits .f32)
    (ht : S1024x256.Transposes [1, 0] S256x1024) (p q : Fin 1024) :
    matmul dot_S1024x256_S256x1024_S1024x1024_1_0_0_1_n_n none (truncf .bf16 u hlt) (transpose S256x1024 [1, 0] (truncf .bf16 w hlt) ht)
        (constant S1024x1024 .f32 0x00000000#32) (ix2 p q)
      = rowDot (n := 1024) (n' := 1024) u w p q := by
  refine (Ideal.matmul_constant_zero_apply dot_S1024x256_S256x1024_S1024x1024_1_0_0_1_n_n none _ _ (ix2 p q)).trans ?_
  unfold rowDot
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q) ((contrEquiv1 dot_S1024x256_S256x1024_S1024x1024_1_0_0_1_n_n 256 rfl rfl).symm k) = ix2 p k :=
    funext fun a => Fin.ext (by
      match a with
      | ⟨0, _⟩ => exact lhs_row _ _
      | ⟨1, _⟩ => exact (lhs_col _ _).trans hk)
  have er : dot_S1024x256_S256x1024_S1024x1024_1_0_0_1_n_n.rhsIdx (ix2 p q) ((contrEquiv1 dot_S1024x256_S256x1024_S1024x1024_1_0_0_1_n_n 256 rfl rfl).symm k) = ix2 k q :=
    funext fun a => Fin.ext (by
      match a with
      | ⟨0, _⟩ => exact (rhs_row _ _).trans hk
      | ⟨1, _⟩ => exact rhs_col _ _)
  rw [el, er]
  exact congrArg (u (ix2 p k) * ·) (transpose_ix2_apply (truncf .bf16 w hlt) ht k q)

/-- Doubled: the splat of the word for two times the product, at `(p, q)`. -/
theorem cross_apply (u w : FVec Ideal S1024x256 .f32) (hlt : FTy.bits .bf16 < FTy.bits .f32)
    (ht : S1024x256.Transposes [1, 0] S256x1024) (p q : Fin 1024) :
    mulf (broadcast S1024x1024 (Scalar.ofBits (F := Ideal) .f32 0x40000000#32))
        (matmul dot_S1024x256_S256x1024_S1024x1024_1_0_0_1_n_n none (truncf .bf16 u hlt) (transpose S256x1024 [1, 0] (truncf .bf16 w hlt) ht)
          (constant S1024x1024 .f32 0x00000000#32)) (ix2 p q)
      = two * rowDot (n := 1024) (n' := 1024) u w p q :=
  congrArg (two * ·) (dot_apply u w hlt ht p q)

/-! ## The body's stored value at an entry -/

/-- The value the body stores, at `(p, q)`: the cross term taken off `‖u_p‖²`, then `‖w_q‖²` added. -/
theorem pay_apply (u w : Vec Ideal S1024x256 .f32) (p q : Fin 1024) :
    k0_pay1 (F := Ideal) u w (ix2 p q) = entry (n := 1024) (n' := 1024) u w p q := by
  unfold k0_pay1 entry
  exact congrArg₂ (· + ·)
    (congrArg₂ (· - ·) (colNorm_apply u _ _ _ _ _ p q) (cross_apply u w _ _ p q))
    (rowNorm_apply w _ _ _ _ _ p q)

end Cert.KernelIdeal.BodyValue

end
-- ==== Proof.BlockValue.lean ====
/-
  From what one grid point computes to the whole result array.

  The grid is 8 × 8. At point `(a, b)` the body holds block `a` of the first array (rows `1024·a …`), the WHOLE second
  array, out of which it loads the slab of rows `1024·b …` itself, and it stores the 1024 × 1024 block `(a, b)` of the
  result. So entry `(p, q)` of that block is the table's entry at rows `(1024·a + p, 1024·b + q)`: the block is a
  restriction of ONE function of the two argument arrays, the 64 blocks tile the 8192 × 8192 result, and the result
  array after the run is that function everywhere.
-/
import proofs.«141284_j22445499089119_2_alg».proof.Proof.Gen.KernelIdeal.Value
import proofs.«141284_j22445499089119_2_alg».proof.Proof.BodyValue
import Idealize.ShloMosaic.Lib.Pipeline.Value

noncomputable section

namespace Cert.KernelIdeal.BlockValue

open Cert.KernelIdeal Cert.KernelIdeal.Gen Idealize.ShloMosaic Idealize.ShloMosaic.TcCoe Idealize.SL.Sem
open Idealize.ShloMosaic.ValueIdx Cert.SqDist
open Idealize.ShloMosaic.Pipeline (Dat)

/-! ## What the body leaves in the output block, for any float values -/

section AnyValues
variable {F : FTy → Type} [FloatOps F]

theorem hz : (![0, 0] : Fin 2 → Nat) = fun _ => 0 := funext fun a => by fin_cases a <;> rfl

/-- The 1024 rows of the second array that the body loads at grid position `i`: those from row `1024 · i₁` on. -/
abbrev slab (i : grid0.Coords) (x1 : Vec F S8192x256 .f32) : Vec F S1024x256 .f32 :=
  View.ld x1 (Rect.unit (s := S8192x256) (k0_off1 i) S1024x256.size (k0_off1_inb i))

/-- The body's one store covers the output block, so the block ends at the stored value: the body's arithmetic
    applied to the first window's block and to the slab of the second. -/
theorem out_eq (c : Dev nD) (i : grid0.Coords) (a2 : Memref sig .tc .vmem S1024x256 .f32) (h2 : a2.IsWhole)
    (a3 : Memref sig .tc .vmem S8192x256 .f32) (h3 : a3.IsWhole) (a4 : Memref sig .tc .vmem S1024x1024 .f32) (h4 : a4.IsWhole)
    (x0 : Vec F S1024x256 .f32) (x1 : Vec F S8192x256 .f32) :
    out0_A_2 c i a2 h2 a3 h3 a4 h4 x0 x1 = k0_pay1 x0 (slab i x1) := by
  unfold out0_A_2
  rw [View.read_writes_eq_canon _ _ _ (cover0_A_2 c i a2 h2 a3 h3 a4 h4 x0 x1)]
  unfold kernelRun0_A
  dsimp only
  rw [View.canon_unit_zero hz]
  simp only [View.readAt_eq_ld, h2.read_unread, h3.read_unread, View.ld_unit_zero (S := S1024x256) hz]

/-- Row `q` of the slab is row `1024 · i₁ + q` of the array it is cut from. -/
theorem slab_apply (i : grid0.Coords) (x1 : Vec F S8192x256 .f32) (q : Fin 1024) (k : Fin 256)
    (hq : 1024 * (i 1).val + q.val < 8192) :
    slab i x1 (ix2 q k) = x1 (ix2 (⟨1024 * (i 1).val + q.val, hq⟩ : Fin 8192) k) := by
  show x1 ((Rect.unit (s := S8192x256) (k0_off1 i) S1024x256.size (k0_off1_inb i)).idx (ix2 q k)) = _
  refine congrArg x1 (funext fun a => Fin.ext ?_)
  match a with
  | ⟨0, _⟩ =>
    show k0_off1 i 0 + 1 * q.val = 1024 * (i 1).val + q.val
    rw [k0_off1_eq]
    show 1024 * (i 1).val + 1 * q.val = _
    omega
  | ⟨1, _⟩ =>
    show k0_off1 i 1 + 1 * k.val = k.val
    rw [k0_off1_eq]
    show 0 + 1 * k.val = _
    omega

end AnyValues

/-! ## One point's block is a block of the table -/

variable (m : (ℓ : Loc nD τ sig) → Buf (Elt Ideal) ℓ) (ρ : Dev nD → PrngReg)

/-- The printed index maps, decided over the 64 points: the first window moves with the output's row block, the
    second never moves, the slab's offset is the output's column block, and both block indices are below 8. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ (grid0.coords t 1).val = win0_2.index t (1 : Fin 2)
    ∧ win0_2.index t (0 : Fin 2) ≤ 7 ∧ win0_2.index t (1 : Fin 2) ≤ 7 :=
  (by decide +kernel : ∀ t : Fin grid0.N, _)

/-- Every one of the 8 × 8 blocks of the result is SOME point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- WHAT POINT `t` WRITES BACK is block `t` of the table of the two argument arrays as the region finds them. -/
theorem flushed_eq (c : Dev nD) (t : Fin cfg0.N) :
    (dats m 0 c).flushed 2 t
      = ((cfg0.win 2).blk t).view.read (Elt Ideal) (table (V m c main_arg0) (V m c main_arg1)) := by
  rw [Cert.KernelIdeal.Value.flushed2_A, out_eq]
  obtain ⟨e00, e01, e10, e11, ec, b0, b1⟩ := idx_facts t
  funext j
  obtain ⟨p, q, rfl⟩ : ∃ (p q : Fin 1024), j = ix2 p q := ⟨j 0, j 1, eq_ix2 j⟩
  show k0_pay1 (F := Ideal) (iblk m c 0 t) (slab (grid0.coords t) (iblk m c 1 t)) (ix2 p q)
    = table (V m c main_arg0) (V m c main_arg1) (((cfg0.win 2).blk t).view.emb (ix2 p q))
  refine (BodyValue.pay_apply (iblk m c 0 t) (slab (grid0.coords t) (iblk m c 1 t)) p q).trans ?_
  have hp : p.val < 1024 := p.isLt
  have hq : q.val < 1024 := q.isLt
  have hs : 1024 * (grid0.coords t 1).val + q.val < 8192 := by omega
  refine entry_congr (n := 1024) (n' := 1024) (N := 8192) (N' := 8192) (iblk m c 0 t) (slab (grid0.coords t) (iblk m c 1 t))
    (V m c main_arg0) (V m c main_arg1) p q _ _ (fun k => ?_) (fun k => ?_)
  · show V m c main_arg0 (((cfg0.win 0).blk t).view.emb (ix2 p k)) = V m c main_arg0 _
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 256 + 1 * k.val = k.val
      omega
  · refine (slab_apply (grid0.coords t) (iblk m c 1 t) q k hs).trans ?_
    show V m c main_arg1 (((cfg0.win 1).blk t).view.emb (ix2 (⟨1024 * (grid0.coords t 1).val + q.val, hs⟩ : Fin 8192) k)) = V m c main_arg1 _
    refine congrArg (V m c main_arg1) (funext fun a => Fin.ext ?_)
    match a with
    | ⟨0, _⟩ =>
      show win0_1.index t (0 : Fin 2) * 8192 + 1 * (1024 * (grid0.coords t 1).val + q.val) = win0_2.index t (1 : Fin 2) * 1024 + 1 * q.val
      omega
    | ⟨1, _⟩ =>
      show win0_1.index t (1 : Fin 2) * 256 + 1 * k.val = k.val
      omega

/-! ## The 64 blocks tile the result -/

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the result lies in the block of the point whose block indices are its coordinates' quotients by
    1024. -/
theorem cover (i : S8192x8192.Idx) :
    ∃ t : Fin cfg0.N, (cfg0.win 2).flush t = true ∧ i ∈ ((cfg0.win 2).blk t).view.set := by
  have hi0 : (i 0).val < 8192 := idx2_lt0 i
  have hi1 : (i 1).val < 8192 := idx2_lt1 i
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE RESULT ARRAY after the run is the table of the two argument arrays as launched. -/
theorem final (c : Dev nD) :
    (dats m 0 c).arrAt 2 cfg0.N
      = table (m ((c : Thread nD τ).loc main_arg0)) (m ((c : Thread nD τ).loc main_arg1)) :=
  (dats m 0 c).arrAt_eq_of_cover 2 (table (V m c main_arg0) (V m c main_arg1)) (fun t _ => flushed_eq m c t) cover

/-- The kernel's run, read: the result array at the table of the arguments, the arguments unchanged. -/
theorem run : θ_run defs (onTc (τ := τ) (main (F := Ideal))) ⟨m, fun _ => 0, ρ⟩ fun r => ∀ c : Dev nD,
      r.2.mem ((c : Thread nD τ).loc main_v0)
        = table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.BlockValue

end
-- ==== Proof.RefValue.lean ====
/-
  The reference computes the same table.

  Its sixteen host operations form, for rows `x_r` and `y_s`: the two row sums of squares (a host sum from the zero
  word, i.e. `0 + ∑ₖ`), laid out as a column and a row and repeated to 8192 × 8192; their sum; the product of the two
  arrays contracted over the 256 coordinates; twice that; and the difference. Read at entry `(r, s)` that is
      (‖x_r‖² + ‖y_s‖²) − 2·⟨x_r, y_s⟩,
  which is the table's entry with its three summands taken in the other order.
-/
import proofs.«141284_j22445499089119_2_alg».proof.Proof.Gen.ReferenceIdeal.Read
import proofs.«141284_j22445499089119_2_alg».proof.Proof.DistSpec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx Cert.SqDist

/-! ## Where each stage reads its operand, at entry `(r, s)` -/

/-- Through the column layout and the repetition, the first norm is read at row `r`, coordinate `k`. -/
theorem at_row (r s : Fin 8192) (k : Fin 256) :
    idx_main_v1 (idx_main_v5 (idx_main_v7 (ix2 r s))) k = ix2 r k :=
  funext fun a => Fin.ext (by match a with | ⟨0, _⟩ => rfl | ⟨1, _⟩ => rfl)

/-- Through the row layout and the repetition, the second norm is read at row `s`, coordinate `k`. -/
theorem at_col (r s : Fin 8192) (k : Fin 256) :
    idx_main_v3 (idx_main_v6 (idx_main_v8 (ix2 r s))) k = ix2 s k :=
  funext fun a => Fin.ext (by match a with | ⟨0, _⟩ => rfl | ⟨1, _⟩ => rfl)

/-- The contraction reads the first array at `(r, k)` … -/
theorem at_lhs (r s : Fin 8192) (k : Fin 256) : lidx_main_v4 (ix2 r s) k = ix2 r k :=
  funext fun a => Fin.ext (by match a with | ⟨0, _⟩ => rfl | ⟨1, _⟩ => rfl)

/-- … and the second at `(s, k)`. -/
theorem at_rhs (r s : Fin 8192) (k : Fin 256) : ridx_main_v4 (ix2 r s) k = ix2 s k :=
  funext fun a => Fin.ext (by match a with | ⟨0, _⟩ => rfl | ⟨1, _⟩ => rfl)

/-! ## The reference's result is the table -/

/-- The reference's last stage, as a function of the two argument arrays, is the table of squared distances: entry by
    entry the norms added first and twice the inner product taken off, the zero a host sum starts from dropped. -/
theorem result_eq_table (x y : (⟨S8192x256, .f32⟩ : BufTy).Contents (Elt Ideal)) :
    val_main_v12 (F := Ideal) x y = table x y := by
  funext i
  obtain ⟨r, s, rfl⟩ : ∃ (r s : Fin 8192), i = ix2 r s := ⟨i 0, i 1, eq_ix2 i⟩
  rw [table_ix2, entry_eq_norms_sub]
  rw [val_main_v12_apply, val_main_v9_apply, val_main_v7_apply, val_main_v5_apply, val_main_v1_apply,
    val_main_v8_apply, val_main_v6_apply, val_main_v3_apply, val_main_v11_apply, val_main_v10_apply,
    val_main_cst_1_apply, val_main_v4_apply, val_main_cst_apply, val_main_cst_0_apply]
  simp only [val_main_v0_apply, val_main_v2_apply, at_row, at_col, at_lhs, at_rhs, Ideal.subf_def, Ideal.addf_def,
    Ideal.mulf_def, Ideal.ofBits_def, Ideal.ofBits_zero_f32, zero_add]
  rfl

end Cert.ReferenceIdeal.RefValue

end
-- ==== Proof.lean ====
/-
  The pairwise squared-distance table of two arrays of 8192 points in dimension 256, computed two ways.

  The kernel walks an 8 × 8 grid; at point `(a, b)` it has rows `1024·a …` of the first array and the whole second
  array, loads rows `1024·b …` of the second, and writes the 1024 × 1024 block `(a, b)` of the result with entries
      (‖x_r‖² − 2·⟨x_r, y_s⟩) + ‖y_s‖².
  The reference forms the whole 8192 × 8192 result at once, with entries
      (‖x_r‖² + ‖y_s‖²) − 2·⟨x_r, y_s⟩.
  On the extended reals the norms and the inner product are the same sums of products on both sides (narrowing the
  factors to bf16 before the matrix product changes nothing there; the zero a sum starts from is `0`), a difference is
  the sum with the negative, and addition is commutative and associative at every value, infinite ones included: the
  two results are one function of the arguments (`Cert.SqDist.table`). The precondition (finite inputs) is not used.

  The frames of the two kernel programs and the reference's run are the generated ones; nothing was rewritten in the
  idealization, so `preserves` is `True`.
-/
import proofs.«141284_j22445499089119_2_alg».proof.Defs
import proofs.«141284_j22445499089119_2_alg».proof.Proof.Gen.Kernel
import proofs.«141284_j22445499089119_2_alg».proof.Proof.Gen.Kernel.Skeleton
import proofs.«141284_j22445499089119_2_alg».proof.Proof.Gen.Kernel.Launch
import proofs.«141284_j22445499089119_2_alg».proof.Proof.Gen.Kernel.Points
import proofs.«141284_j22445499089119_2_alg».proof.Proof.Gen.Kernel.Frame
import proofs.«141284_j22445499089119_2_alg».proof.Proof.Gen.KernelIdeal
import proofs.«141284_j22445499089119_2_alg».proof.Proof.Gen.KernelIdeal.Skeleton
import proofs.«141284_j22445499089119_2_alg».proof.Proof.Gen.KernelIdeal.Launch
import proofs.«141284_j22445499089119_2_alg».proof.Proof.Gen.KernelIdeal.Points
import proofs.«141284_j22445499089119_2_alg».proof.Proof.Gen.KernelIdeal.Frame
import proofs.«141284_j22445499089119_2_alg».proof.Proof.Gen.ReferenceIdeal
import proofs.«141284_j22445499089119_2_alg».proof.Proof.Gen.Pre_finite_inputs
import proofs.«141284_j22445499089119_2_alg».proof.Proof.Gen.KernelIdeal.Value
import proofs.«141284_j22445499089119_2_alg».proof.Proof.Gen.ReferenceIdeal.Run
import proofs.«141284_j22445499089119_2_alg».proof.Proof.Gen.ReferenceIdeal.Read
import proofs.«141284_j22445499089119_2_alg».proof.Proof.BlockValue
import proofs.«141284_j22445499089119_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- On the extended reals, from memories that agree on the two argument arrays, the kernel's result array ends at the
    table of squared distances of the arguments (its 64 blocks, each a block of the table) and the reference's at its
    last stage, which is the same table with each entry's summands taken in another order. -/
theorem algebraic : Cert.algebraic_KernelIdeal_ReferenceIdeal := by
  intro m ρ m' ρ' _ hagree
  refine ⟨fun c => Cert.SqDist.table (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v12_eq]
  exact Cert.ReferenceIdeal.RefValue.result_eq_table _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
